-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x3072 : Shape := ⟨3, ![32, 1024, 3072]⟩
abbrev S32x3072x1024 : Shape := ⟨3, ![32, 3072, 1024]⟩
abbrev S32x1024x256 : Shape := ⟨3, ![32, 1024, 256]⟩
abbrev S_ : Shape := ⟨0, ![]⟩

class Facts : Prop where
  bcast_S_S32x1024x3072 : S_.BroadcastsInDim S32x1024x3072 (![] : Fin 0 → Fin S32x1024x3072.rank)
  reducesTo_S32x1024x3072_S_d0_1_2 : S32x1024x3072.ReducesTo [0, 1, 2] S_
  h_S_ : 0 < S_.numel
  bcast_S_S32x3072x1024 : S_.BroadcastsInDim S32x3072x1024 (![] : Fin 0 → Fin S32x3072x1024.rank)
  reducesTo_S32x3072x1024_S_d0_1_2 : S32x3072x1024.ReducesTo [0, 1, 2] S_
  bcast_S_S32x1024x256 : S_.BroadcastsInDim S32x1024x256 (![] : Fin 0 → Fin S32x1024x256.rank)
  reducesTo_S32x1024x256_S_d0_1_2 : S32x1024x256.ReducesTo [0, 1, 2] S_

variable [Facts]

def fn {F : FTy → Type} [FloatOps F] (main_arg0 : FVec F S32x1024x3072 .f32) (main_arg1 : FVec F S32x3072x1024 .f32) (main_arg2 : FVec F S32x1024x256 .f32) : IVec S_ 1 :=
  let main_v0 : FVec F S32x1024x3072 .f32 := Host.absf main_arg0
  let main_cst : FVec F S_ .f32 := constant S_ .f32 0x7F800000#32
  let main_v1 : FVec F S32x1024x3072 .f32 := broadcastInDim S32x1024x3072 ![] bcast_S_S32x1024x3072 main_cst
  let main_v2 : IVec S32x1024x3072 1 := cmpf .olt main_v0 main_v1
  let main_c : IVec S_ 1 := constantI S_ 1 1#1
  let main_v3 : IVec S_ 1 := (fun x v => Host.reduce IntOp.andi x v reducesTo_S32x1024x3072_S_d0_1_2 h_S_) main_v2 main_c
  let main_v4 : FVec F S32x3072x1024 .f32 := Host.absf main_arg1
  let main_cst_0 : FVec F S_ .f32 := constant S_ .f32 0x7F800000#32
  let main_v5 : FVec F S32x3072x1024 .f32 := broadcastInDim S32x3072x1024 ![] bcast_S_S32x3072x1024 main_cst_0
  let main_v6 : IVec S32x3072x1024 1 := cmpf .olt main_v4 main_v5
  let main_c_1 : IVec S_ 1 := constantI S_ 1 1#1
  let main_v7 : IVec S_ 1 := (fun x v => Host.reduce IntOp.andi x v reducesTo_S32x3072x1024_S_d0_1_2 h_S_) main_v6 main_c_1
  let main_v8 : IVec S_ 1 := andi main_v3 main_v7
  let main_v9 : FVec F S32x1024x256 .f32 := Host.absf main_arg2
  let main_cst_2 : FVec F S_ .f32 := constant S_ .f32 0x7F800000#32
  let main_v10 : FVec F S32x1024x256 .f32 := broadcastInDim S32x1024x256 ![] bcast_S_S32x1024x256 main_cst_2
  let main_v11 : IVec S32x1024x256 1 := cmpf .olt main_v9 main_v10
  let main_c_3 : IVec S_ 1 := constantI S_ 1 1#1
  let main_v12 : IVec S_ 1 := (fun x v => Host.reduce IntOp.andi x v reducesTo_S32x1024x256_S_d0_1_2 h_S_) main_v11 main_c_3
  let main_v13 : IVec S_ 1 := andi main_v8 main_v12
  main_v13
-- ==== Kernel.lean ====
abbrev S32x1024x3072 : Shape := ⟨3, ![32, 1024, 3072]⟩
abbrev S32x3072x1024 : Shape := ⟨3, ![32, 3072, 1024]⟩
abbrev S32x1024x256 : Shape := ⟨3, ![32, 1024, 256]⟩
abbrev S1x512x3072 : Shape := ⟨3, ![1, 512, 3072]⟩
abbrev S1x3072x1024 : Shape := ⟨3, ![1, 3072, 1024]⟩
abbrev S1x1024x256 : Shape := ⟨3, ![1, 1024, 256]⟩
abbrev S1x512x256 : Shape := ⟨3, ![1, 512, 256]⟩
abbrev S3072x1024 : Shape := ⟨2, ![3072, 1024]⟩
abbrev S1024x256 : Shape := ⟨2, ![1024, 256]⟩
abbrev S512x3072 : Shape := ⟨2, ![512, 3072]⟩
abbrev S512x1024 : Shape := ⟨2, ![512, 1024]⟩
abbrev S512x256 : Shape := ⟨2, ![512, 256]⟩

abbrev nBuf : Space → Nat
  | .hbm => 4
  | .vmem => 10
  | .smem => 0
  | _ => 0

abbrev bufTy : (tb : Table) → Fin (tcTables nBuf tb) → BufTy
  | .hbm, ⟨0, _⟩ => ⟨S32x1024x3072, .f32⟩
  | .hbm, ⟨1, _⟩ => ⟨S32x3072x1024, .f32⟩
  | .hbm, ⟨2, _⟩ => ⟨S32x1024x256, .f32⟩
  | .hbm, ⟨3, _⟩ => ⟨S32x1024x256, .f32⟩
  | .local _ .vmem, ⟨0, _⟩ => ⟨S1x512x3072, .f32⟩
  | .local _ .vmem, ⟨1, _⟩ => ⟨S1x512x3072, .f32⟩
  | .local _ .vmem, ⟨2, _⟩ => ⟨S1x3072x1024, .f32⟩
  | .local _ .vmem, ⟨3, _⟩ => ⟨S1x3072x1024, .f32⟩
  | .local _ .vmem, ⟨4, _⟩ => ⟨S1x1024x256, .f32⟩
  | .local _ .vmem, ⟨5, _⟩ => ⟨S1x1024x256, .f32⟩
  | .local _ .vmem, ⟨6, _⟩ => ⟨S1x512x256, .f32⟩
  | .local _ .vmem, ⟨7, _⟩ => ⟨S1x512x256, .f32⟩
  | .local _ .vmem, ⟨8, _⟩ => ⟨S3072x1024, .bf16⟩
  | .local _ .vmem, ⟨9, _⟩ => ⟨S1024x256, .bf16⟩
  | _, _ => ⟨S32x1024x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3072x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x3072x1024_S1x3072x1024_0_0_0 : ∀ a, (![0, 0, 0] : Fin 3 → Nat) a + S1x3072x1024.size a ≤ S1x3072x1024.size a
  h_S1x3072x1024 : 0 < S1x3072x1024.numel
  shapeCasts_S1x3072x1024_S3072x1024 : S1x3072x1024.ShapeCasts S3072x1024
  bitsLt_bf16_f32 : FTy.bits .bf16 < FTy.bits .f32
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  packedbf16_S3072x1024_S3072x1024_0_0 : (Rect.unit (s := S3072x1024) ![0, 0] S3072x1024.size inb_S3072x1024_S3072x1024_0_0).PackedRows (EltTy.packing .bf16)
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S1x512x3072_S1x512x3072_0_0_0 : ∀ a, (![0, 0, 0] : Fin 3 → Nat) a + S1x512x3072.size a ≤ S1x512x3072.size a
  h_S1x512x3072 : 0 < S1x512x3072.numel
  shapeCasts_S1x512x3072_S512x3072 : S1x512x3072.ShapeCasts S512x3072
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S512x3072_S3072x1024_S512x1024_1_0_0_1_n_n_wf : DotDims.WF S512x3072 S3072x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3072.size a ≤ S32x1024x3072.size a
  hwx0_0 : ∀ i : grid0.Coords, EltTy.bits .f32 = 32 ∨ (Rect.block (s := S32x1024x3072) S1x512x3072.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3072x1024.size a ≤ S32x3072x1024.size a
  hwx0_1 : ∀ i : grid0.Coords, EltTy.bits .f32 = 32 ∨ (Rect.block (s := S32x3072x1024) S1x3072x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S32x1024x256.size a
  hwx0_2 : ∀ i : grid0.Coords, EltTy.bits .f32 = 32 ∨ (Rect.block (s := S32x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x256.size a ≤ S32x1024x256.size a
  hwx0_3 : ∀ i : grid0.Coords, EltTy.bits .f32 = 32 ∨ (Rect.block (s := S32x1024x256) S1x512x256.size (cc0_transform_3 i) (hinb0_3 i)).WholeWords (EltTy.packing .f32)

variable [Facts₀]

def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S1x512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3072x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x3072 : Shape := ⟨3, ![32, 1024, 3072]⟩
abbrev S32x3072x1024 : Shape := ⟨3, ![32, 3072, 1024]⟩
abbrev S32x1024x256 : Shape := ⟨3, ![32, 1024, 256]⟩
abbrev S32x1024x1024 : Shape := ⟨3, ![32, 1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S32x1024x3072, .f32⟩
  | .hbm, ⟨1, _⟩ => ⟨S32x3072x1024, .f32⟩
  | .hbm, ⟨2, _⟩ => ⟨S32x1024x256, .f32⟩
  | .hbm, ⟨3, _⟩ => ⟨S32x1024x1024, .f32⟩
  | .hbm, ⟨4, _⟩ => ⟨S_, .f32⟩
  | .hbm, ⟨5, _⟩ => ⟨S32x1024x1024, .f32⟩
  | .hbm, ⟨6, _⟩ => ⟨S32x1024x1024, .f32⟩
  | .hbm, ⟨7, _⟩ => ⟨S32x1024x256, .f32⟩
  | .hbm, ⟨8, _⟩ => ⟨S_, .f32⟩
  | .hbm, ⟨9, _⟩ => ⟨S32x1024x256, .f32⟩
  | .hbm, ⟨10, _⟩ => ⟨S32x1024x256, .f32⟩
  | _, _ => ⟨S32x1024x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_call1_cst : Ref sig .tc := ⟨.hbm, 8, rfl⟩
abbrev main_call1_v0 : Ref sig .tc := ⟨.hbm, 9, rfl⟩
abbrev main_v3 : Ref sig .tc := ⟨.hbm, 10, rfl⟩

abbrev nD : Nat := 1
abbrev τ : Topo := Topo.v7x

variable {F : FTy → Type} [FloatOps F]

class Facts₀ : Prop where
  bcast_S_S32x1024x1024 : S_.BroadcastsInDim S32x1024x1024 (![] : Fin 0 → Fin S32x1024x1024.rank)
  bcast_S_S32x1024x256 : S_.BroadcastsInDim S32x1024x256 (![] : Fin 0 → Fin S32x1024x256.rank)
  dot_S32x1024x3072_S32x3072x1024_S32x1024x1024_2_1_1_2_0_0_wf : DotDims.WF S32x1024x3072 S32x3072x1024 S32x1024x1024 [2] [1] [1] [2] [0] [0]
  dot_S32x1024x1024_S32x1024x256_S32x1024x256_2_1_1_2_0_0_wf : DotDims.WF S32x1024x1024 S32x1024x256 S32x1024x256 [2] [1] [1] [2] [0] [0]

variable [Facts₀]

def dot_S32x1024x3072_S32x3072x1024_S32x1024x1024_2_1_1_2_0_0 : DotDims S32x1024x3072 S32x3072x1024 S32x1024x1024 where
  lhsContracting := [2]
  rhsContracting := [1]
  lhsNonContracting := [1]
  rhsNonContracting := [2]
  lhsBatch := [0]
  rhsBatch := [0]
  wf := dot_S32x1024x3072_S32x3072x1024_S32x1024x1024_2_1_1_2_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.Spec.lean ====
/-
  The function both programs compute, index by index: per expert `e` a two-layer perceptron with
  a rectifier after each layer,

    out[e, n, o] = max(Σ_h max(Σ_d x[e, n, d] · w1[e, d, h], 0) · w2[e, h, o], 0),

  over the extended reals, with `x` of extents [32, 1024, 3072], `w1` of [32, 3072, 1024] and
  `w2` of [32, 1024, 256]. The rectifier's zero is kept as the word the programs write.
-/
import Idealize.ShloMosaic.PureOps.Ideal
import Idealize.ShloMosaic.Lib.ValueIdx

noncomputable section

open scoped BigOperators

namespace Cert.Mlp

open Idealize.ShloMosaic Idealize.ShloMosaic.ValueIdx

/-- The extents of `x`, of `w1`, and of `w2` and the result. -/
abbrev SX : Shape := ⟨3, ![32, 1024, 3072]⟩
abbrev SW1 : Shape := ⟨3, ![32, 3072, 1024]⟩
abbrev SW2 : Shape := ⟨3, ![32, 1024, 256]⟩

/-- The rectifier's threshold: the float zero. -/
abbrev zero : EReal := Ideal.ofBits .f32 0x00000000#32

/-- Hidden unit `h` of row `n` of expert `e`: the rectified inner product of the row of `x` with
    column `h` of the expert's first weight matrix. -/
def hiddenUnit (x : SX.Idx → EReal) (w1 : SW1.Idx → EReal) (e : Fin 32) (n : Fin 1024) (h : Fin 1024) : EReal :=
  max (∑ d : Fin 3072, x (ix3 e n d) * w1 (ix3 e d h)) zero

/-- Output unit `o` of row `n` of expert `e`: the rectified inner product of the row's hidden
    units with column `o` of the expert's second weight matrix. -/
def outUnit (x : SX.Idx → EReal) (w1 : SW1.Idx → EReal) (w2 : SW2.Idx → EReal) (e : Fin 32) (n : Fin 1024) (o : Fin 256) : EReal :=
  max (∑ h : Fin 1024, hiddenUnit x w1 e n h * w2 (ix3 e h o)) zero

/-- The whole result array. -/
def mlp (x : SX.Idx → EReal) (w1 : SW1.Idx → EReal) (w2 : SW2.Idx → EReal) : SW2.Idx → EReal :=
  fun i => outUnit x w1 w2 (i 0) (i 1) (i 2)

end Cert.Mlp

end
-- ==== Proof.RefValue.lean ====
/-
  The reference computes the specification: its two batched contractions are, at an index
  (e, n, ·), the sums over the contracted axis of the products at (e, n, k) and (e, k, ·), and each
  rectifier is the maximum with the float zero.
-/
import proofs.«107512_j28097676051039_2_alg».proof.Proof.Spec
import proofs.«107512_j28097676051039_2_alg».proof.Proof.Gen.ReferenceIdeal.Read

noncomputable section

open scoped BigOperators

namespace Cert.ReferenceIdeal.RefValue

open Cert.ReferenceIdeal Cert.ReferenceIdeal.Read Idealize.ShloMosaic Idealize.ShloMosaic.ValueIdx Cert.Mlp

/-- The left operand of the first contraction, under the left operand of the second, is read at (e, n, d). -/
theorem left_of_left (i : S32x1024x256.Idx) (k : Fin 1024) (d : Fin 3072) :
    lidx_main_v0 (lidx_main_v2 i k) d = ix3 (i 0) (i 1) d :=
  funext fun a => by match a with | ⟨0, _⟩ => rfl | ⟨1, _⟩ => rfl | ⟨2, _⟩ => rfl

/-- The right operand of the first contraction, under the left operand of the second, is read at (e, d, k). -/
theorem right_of_left (i : S32x1024x256.Idx) (k : Fin 1024) (d : Fin 3072) :
    ridx_main_v0 (lidx_main_v2 i k) d = ix3 (i 0) d k :=
  funext fun a => by match a with | ⟨0, _⟩ => rfl | ⟨1, _⟩ => rfl | ⟨2, _⟩ => rfl

/-- The right operand of the second contraction is read at (e, k, o). -/
theorem right_second (i : S32x1024x256.Idx) (k : Fin 1024) :
    ridx_main_v2 i k = ix3 (i 0) k (i 2) :=
  funext fun a => by match a with | ⟨0, _⟩ => rfl | ⟨1, _⟩ => rfl | ⟨2, _⟩ => rfl

/-- The reference's result, as a function of its three arguments, is the specification. -/
theorem result_eq (x0 : S32x1024x3072.Idx → EReal) (x1 : S32x3072x1024.Idx → EReal) (x2 : S32x1024x256.Idx → EReal) :
    val_main_v3 (F := Ideal) x0 x1 x2 = mlp x0 x1 x2 := by
  funext i
  rw [val_main_v3_apply, val_main_v2_apply, val_main_call1_v0_apply, val_main_call1_cst_apply]
  simp only [val_main_v1_apply, val_main_v0_apply, val_main_call0_v0_apply, val_main_call0_cst_apply,
    left_of_left, right_of_left, right_second]
  rfl

end Cert.ReferenceIdeal.RefValue

end
-- ==== Proof.KernelPieces.lean ====
/-
  What one run of the kernel body leaves behind, as values of what it loaded.

  At the first row tile of an expert (the branch taken) the body copies the expert's two weight
  blocks into the two carried buffers, each through a change of float format, and then computes
  the output tile from the row tile of `x` and from those two buffers as it has just filled them.
  At the second row tile (the branch not taken) it leaves the two buffers alone and computes the
  output tile from the row tile of `x` and from what the buffers already held.
  Every store covers its whole buffer and every load reads a whole buffer, so what a buffer holds
  afterwards is the one stored value, and a load of a buffer just stored reads that value back.
-/
import proofs.«107512_j28097676051039_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a rank-2 buffer. -/
theorem zero2 : (![0, 0] : Fin 2 → Nat) = fun _ => 0 := funext fun a => by fin_cases a <;> rfl
/-- The zero offsets of a rank-3 buffer. -/
theorem zero3 : (![0, 0, 0] : Fin 3 → Nat) = fun _ => 0 := funext fun a => by fin_cases a <;> rfl

/-- First row tile: the first carried buffer ends holding the first weight block, format changed. -/
theorem first_w1 (c : Dev nD) (i : grid0.Coords) (arg2 : Memref sig .tc .vmem S1x512x3072 .f32) (harg2 : arg2.IsWhole) (arg3 : Memref sig .tc .vmem S1x3072x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S3072x1024 .bf16) (harg6 : arg6.IsWhole) (arg7 : Memref sig .tc .vmem S1024x256 .bf16) (harg7 : arg7.IsWhole) (hc0 : cond0_0 i)
    (x0 : Vec F S1x512x3072 .f32) (x1 : Vec F S1x3072x1024 .f32) (x2 : Vec F S1x1024x256 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero zero2]
  simp only [View.readAt_eq_ld, harg3.read_unread, View.ld_unit_zero (S := S1x3072x1024) zero3]

/-- First row tile: the second carried buffer ends holding the second weight block, format changed. -/
theorem first_w2 (c : Dev nD) (i : grid0.Coords) (arg2 : Memref sig .tc .vmem S1x512x3072 .f32) (harg2 : arg2.IsWhole) (arg3 : Memref sig .tc .vmem S1x3072x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S3072x1024 .bf16) (harg6 : arg6.IsWhole) (arg7 : Memref sig .tc .vmem S1024x256 .bf16) (harg7 : arg7.IsWhole) (hc0 : cond0_0 i)
    (x0 : Vec F S1x512x3072 .f32) (x1 : Vec F S1x3072x1024 .f32) (x2 : Vec F S1x1024x256 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero zero2]
  simp only [View.readAt_eq_ld, harg4.read_unread, View.ld_unit_zero (S := S1x1024x256) zero3]

/-- First row tile: the output tile is computed from the row tile of `x` and the two weight blocks
    as just copied. -/
theorem first_out (c : Dev nD) (i : grid0.Coords) (arg2 : Memref sig .tc .vmem S1x512x3072 .f32) (harg2 : arg2.IsWhole) (arg3 : Memref sig .tc .vmem S1x3072x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S3072x1024 .bf16) (harg6 : arg6.IsWhole) (arg7 : Memref sig .tc .vmem S1024x256 .bf16) (harg7 : arg7.IsWhole) (hc0 : cond0_0 i)
    (x0 : Vec F S1x512x3072 .f32) (x1 : Vec F S1x3072x1024 .f32) (x2 : Vec F S1x1024x256 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero zero3, View.readCov_unit_zero (S := S3072x1024) _ zero2,
    View.readCov_unit_zero (S := S1024x256) _ zero2]
  simp only [View.readAt_eq_ld, harg2.read_unread, harg3.read_unread, harg4.read_unread,
    View.ld_unit_zero (S := S1x512x3072) zero3, View.ld_unit_zero (S := S1x3072x1024) zero3,
    View.ld_unit_zero (S := S1x1024x256) zero3]

/-- Second row tile: the output tile is computed from the row tile of `x` and what the two carried
    buffers held on entry. -/
theorem later_out (c : Dev nD) (i : grid0.Coords) (arg2 : Memref sig .tc .vmem S1x512x3072 .f32) (harg2 : arg2.IsWhole) (arg3 : Memref sig .tc .vmem S1x3072x1024 .f32) (harg3 : arg3.IsWhole) (arg4 : Memref sig .tc .vmem S1x1024x256 .f32) (harg4 : arg4.IsWhole) (arg5 : Memref sig .tc .vmem S1x512x256 .f32) (harg5 : arg5.IsWhole) (arg6 : Memref sig .tc .vmem S3072x1024 .bf16) (harg6 : arg6.IsWhole) (arg7 : Memref sig .tc .vmem S1024x256 .bf16) (harg7 : arg7.IsWhole) (hc0 : ¬cond0_0 i)
    (x0 : Vec F S1x512x3072 .f32) (x1 : Vec F S1x3072x1024 .f32) (x2 : Vec F S1x1024x256 .f32) (xs0 : Vec F S3072x1024 .bf16) (xs1 : Vec F S1024x256 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero zero3]
  simp only [View.readAt_eq_ld, harg2.read_unread, harg6.read_unread, harg7.read_unread,
    View.ld_unit_zero (S := S1x512x3072) zero3, View.ld_unit_zero (S := S3072x1024) zero2,
    View.ld_unit_zero (S := S1024x256) zero2]

end Cert.KernelIdeal.Pieces

end
-- ==== Proof.KernelPayload.lean ====
/-
  The body's arithmetic read at an index, over the extended reals.

  A change of float format is the identity, a cast that drops or adds a leading unit axis reads
  (0, a, b) at (a, b), and a matrix product into a zero accumulator is, at (r, c), the sum over the
  contracted axis of the products of row r of the left factor with column c of the right one.
  So the copy of a weight block reads the block's entry (0, d, h) at (d, h), and the output tile at
  (0, r, o) is
    max(Σ_h max(Σ_d a[0, r, d] · b[d, h], 0) · c[h, o], 0)
  for the row tile `a` of `x` and the two buffers `b`, `c`.
-/
import proofs.«107512_j28097676051039_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The copy of the first weight block reads the block's entry (0, d, h) at (d, h). -/
theorem copy_w1_apply (v : Vec Ideal S1x3072x1024 .f32) (d : Fin 3072) (h : Fin 1024) :
    k0_pay1 (F := Ideal) v (ix2 d h) = v (ix3 (0 : Fin 1) d h) := by
  unfold k0_pay1
  refine (congrFun (shapeCast_self _ _) (ix2 d h)).trans ?_
  exact shapeCast_1ab_ab_apply v _ d h

/-- The copy of the second weight block reads the block's entry (0, h, o) at (h, o). -/
theorem copy_w2_apply (v : Vec Ideal S1x1024x256 .f32) (h : Fin 1024) (o : Fin 256) :
    k0_pay2 (F := Ideal) v (ix2 h o) = v (ix3 (0 : Fin 1) h o) := by
  unfold k0_pay2
  refine (congrFun (shapeCast_self _ _) (ix2 h o)).trans ?_
  exact shapeCast_1ab_ab_apply v _ h o

/-- The first product's left factor is read on the result's row … -/
theorem first_lhs_row (j : S512x1024.Idx) (q : dot_S512x3072_S3072x1024_S512x1024_1_0_0_1_n_n.contr.Idx) :
    (dot_S512x3072_S3072x1024_S512x1024_1_0_0_1_n_n.lhsIdx j q 0).val = (j 0).val := by
  unfold DotDims.lhsIdx
  rw [dif_neg (show ¬(0 : Fin S512x3072.rank) ∈ dot_S512x3072_S3072x1024_S512x1024_1_0_0_1_n_n.lhsBatch by decide), dif_pos (show (0 : Fin S512x3072.rank) ∈ dot_S512x3072_S3072x1024_S512x1024_1_0_0_1_n_n.lhsNonContracting by decide)]
  rfl
/-- … and its right factor on the result's column. -/
theorem first_rhs_col (j : S512x1024.Idx) (q : dot_S512x3072_S3072x1024_S512x1024_1_0_0_1_n_n.contr.Idx) :
    (dot_S512x3072_S3072x1024_S512x1024_1_0_0_1_n_n.rhsIdx j q 1).val = (j 1).val := by
  unfold DotDims.rhsIdx
  rw [dif_neg (show ¬(1 : Fin S3072x1024.rank) ∈ dot_S512x3072_S3072x1024_S512x1024_1_0_0_1_n_n.rhsBatch by decide), dif_pos (show (1 : Fin S3072x1024.rank) ∈ dot_S512x3072_S3072x1024_S512x1024_1_0_0_1_n_n.rhsNonContracting by decide)]
  rfl
/-- The second product's left factor is read on the result's row … -/
theorem second_lhs_row (j : S512x256.Idx) (q : dot_S512x1024_S1024x256_S512x256_1_0_0_1_n_n.contr.Idx) :
    (dot_S512x1024_S1024x256_S512x256_1_0_0_1_n_n.lhsIdx j q 0).val = (j 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- … and its right factor on the result's column. -/
theorem second_rhs_col (j : S512x256.Idx) (q : dot_S512x1024_S1024x256_S512x256_1_0_0_1_n_n.contr.Idx) :
    (dot_S512x1024_S1024x256_S512x256_1_0_0_1_n_n.rhsIdx j q 1).val = (j 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The first matrix product into the zero accumulator, at (r, h): the sum over d of a[r, d] · b[d, h]. -/
theorem matmul_first_apply (a : FVec Ideal S512x3072 .bf16) (b : FVec Ideal S3072x1024 .bf16) (r : Fin 512) (h : Fin 1024) :
    matmul dot_S512x3072_S3072x1024_S512x1024_1_0_0_1_n_n none a b (constant (F := Ideal) S512x1024 .f32 0x00000000#32) (ix2 r h)
      = ∑ d : Fin 3072, a (ix2 r d) * b (ix2 d h) := by
  refine (Ideal.matmul_constant_zero_apply dot_S512x3072_S3072x1024_S512x1024_1_0_0_1_n_n none a b (ix2 r h)).trans ?_
  rw [← Equiv.sum_comp (contrEquiv1 dot_S512x3072_S3072x1024_S512x1024_1_0_0_1_n_n 3072 rfl rfl).symm]
  refine Finset.sum_congr rfl fun k _ => ?_
  have hk := contrEquiv1_symm_val dot_S512x3072_S3072x1024_S512x1024_1_0_0_1_n_n 3072 rfl rfl k
  have el : dot_S512x3072_S3072x1024_S512x1024_1_0_0_1_n_n.lhsIdx (ix2 r h) ((contrEquiv1 dot_S512x3072_S3072x1024_S512x1024_1_0_0_1_n_n 3072 rfl rfl).symm k) = ix2 r k := funext fun x => Fin.ext (by
    match x with
    | ⟨0, _⟩ => exact first_lhs_row _ _
    | ⟨1, _⟩ => exact (dot_S512x3072_S3072x1024_S512x1024_1_0_0_1_n_n.lhsIdx_val_of_single rfl _ _).trans hk)
  have er : dot_S512x3072_S3072x1024_S512x1024_1_0_0_1_n_n.rhsIdx (ix2 r h) ((contrEquiv1 dot_S512x3072_S3072x1024_S512x1024_1_0_0_1_n_n 3072 rfl rfl).symm k) = ix2 k h := funext fun x => Fin.ext (by
    match x with
    | ⟨0, _⟩ => exact (dot_S512x3072_S3072x1024_S512x1024_1_0_0_1_n_n.rhsIdx_val_of_single rfl _ _).trans hk
    | ⟨1, _⟩ => exact first_rhs_col _ _)
  rw [el, er]

/-- The second matrix product into the zero accumulator, at (r, o): the sum over h of a[r, h] · b[h, o]. -/
theorem matmul_second_apply (a : FVec Ideal S512x1024 .bf16) (b : FVec Ideal S1024x256 .bf16) (r : Fin 512) (o : Fin 256) :
    matmul dot_S512x1024_S1024x256_S512x256_1_0_0_1_n_n none a b (constant (F := Ideal) S512x256 .f32 0x00000000#32) (ix2 r o)
      = ∑ h : Fin 1024, a (ix2 r h) * b (ix2 h o) := by
  refine (Ideal.matmul_constant_zero_apply dot_S512x1024_S1024x256_S512x256_1_0_0_1_n_n none a b (ix2 r o)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 r o) ((contrEquiv1 dot_S512x1024_S1024x256_S512x256_1_0_0_1_n_n 1024 rfl rfl).symm k) = ix2 r k := funext fun x => Fin.ext (by
    match x with
    | ⟨0, _⟩ => exact second_lhs_row _ _
    | ⟨1, _⟩ => exact (dot_S512x1024_S1024x256_S512x256_1_0_0_1_n_n.lhsIdx_val_of_single rfl _ _).trans hk)
  have er : dot_S512x1024_S1024x256_S512x256_1_0_0_1_n_n.rhsIdx (ix2 r o) ((contrEquiv1 dot_S512x1024_S1024x256_S512x256_1_0_0_1_n_n 1024 rfl rfl).symm k) = ix2 k o := funext fun x => Fin.ext (by
    match x with
    | ⟨0, _⟩ => exact (dot_S512x1024_S1024x256_S512x256_1_0_0_1_n_n.rhsIdx_val_of_single rfl _ _).trans hk
    | ⟨1, _⟩ => exact second_rhs_col _ _)
  rw [el, er]

/-- The output tile at (0, r, o), from the row tile `a` of `x` and the two buffers `b`, `c`:
    two rectified inner products, the second over the first's results. -/
theorem out_tile_apply (a : Vec Ideal S1x512x3072 .f32) (b : Vec Ideal S3072x1024 .bf16) (c : Vec Ideal S1024x256 .bf16)
    (u : Fin 1) (r : Fin 512) (o : Fin 256) :
    k0_pay3 (F := Ideal) a b c (ix3 u r o)
      = max (∑ h : Fin 1024, max (∑ d : Fin 3072, a (ix3 (0 : Fin 1) r d) * b (ix2 d h)) (Ideal.ofBits .f32 0x00000000#32) * c (ix2 h o))
          (Ideal.ofBits .f32 0x00000000#32) := by
  unfold k0_pay3
  refine (shapeCast_ab_1ab_apply _ _ u r o).trans ?_
  refine congrArg (fun s => max s (Ideal.ofBits .f32 0x00000000#32)) ?_
  refine (matmul_second_apply _ _ r o).trans ?_
  refine Finset.sum_congr rfl fun h _ => ?_
  refine congrArg (fun s => s * c (ix2 h o)) ?_
  refine congrArg (fun s => max s (Ideal.ofBits .f32 0x00000000#32)) ?_
  refine (matmul_first_apply _ _ r h).trans ?_
  refine Finset.sum_congr rfl fun d _ => ?_
  exact congrArg (fun s => s * b (ix2 d h)) (shapeCast_1ab_ab_apply a _ r d)

end Cert.KernelIdeal.Payload

end
-- ==== Proof.KernelBlocks.lean ====
/-
  Where each staged block sits in its array.

  The grid has 64 points: point t works on expert t / 2 and on row tile t mod 2 (rows
  512·(t mod 2) … 512·(t mod 2) + 511). The block of `x` and the output block at point t are the
  [1, 512, ·] tiles at (t / 2, t mod 2, 0); the blocks of the two weight arrays are the whole
  [1, ·, ·] slabs of expert t / 2. An element of a block at local index y sits in the array, on
  each axis, at block index × block extent + y.
-/
import proofs.«107512_j28097676051039_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- The four index maps at every grid point: expert t / 2 on axis 0; the row tile t mod 2 on axis 1
    for `x` and the output, 0 for the weights; 0 on axis 2. -/
theorem index_maps : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The row tile of `x` at point t, at (0, r, d), is `x` at (t / 2, 512·(t mod 2) + r, d). -/
theorem x_tile_apply (c : Dev nD) (t : Fin cfg0.N) (r : Fin 512) (d : Fin 3072) (e : Fin 32) (n : Fin 1024)
    (he : e.val = t.val / 2) (hn : n.val = 512 * (t.val % 2) + r.val) :
    (iblk m c 0 t : Vec F S1x512x3072 .f32) (ix3 (0 : Fin 1) r d) = V m c main_arg0 (ix3 e n d) := by
  obtain ⟨a0, a1, a2, -⟩ := index_maps t
  unfold iblk
  rw [View.read_apply]
  show V m c main_arg0 _ = V m c main_arg0 _
  congr 1
  funext a
  apply Fin.ext
  match a with
  | ⟨0, _⟩ => show win0_0.index t (0 : Fin 3) * 1 + 1 * 0 = e.val; omega
  | ⟨1, _⟩ => show win0_0.index t (1 : Fin 3) * 512 + 1 * r.val = n.val; omega
  | ⟨2, _⟩ => show win0_0.index t (2 : Fin 3) * 3072 + 1 * d.val = d.val; omega

/-- The block of the first weight array at point t, at (0, d, h), is that array at (t / 2, d, h). -/
theorem w1_slab_apply (c : Dev nD) (t : Fin cfg0.N) (d : Fin 3072) (h : Fin 1024) (e : Fin 32) (he : e.val = t.val / 2) :
    (iblk m c 1 t : Vec F S1x3072x1024 .f32) (ix3 (0 : Fin 1) d h) = V m c main_arg1 (ix3 e d h) := by
  obtain ⟨-, -, -, a0, a1, a2, -⟩ := index_maps t
  unfold iblk
  rw [View.read_apply]
  show V m c main_arg1 _ = V m c main_arg1 _
  congr 1
  funext a
  apply Fin.ext
  match a with
  | ⟨0, _⟩ => show win0_1.index t (0 : Fin 3) * 1 + 1 * 0 = e.val; omega
  | ⟨1, _⟩ => show win0_1.index t (1 : Fin 3) * 3072 + 1 * d.val = d.val; omega
  | ⟨2, _⟩ => show win0_1.index t (2 : Fin 3) * 1024 + 1 * h.val = h.val; omega

/-- The block of the second weight array at point t, at (0, h, o), is that array at (t / 2, h, o). -/
theorem w2_slab_apply (c : Dev nD) (t : Fin cfg0.N) (h : Fin 1024) (o : Fin 256) (e : Fin 32) (he : e.val = t.val / 2) :
    (iblk m c 2 t : Vec F S1x1024x256 .f32) (ix3 (0 : Fin 1) h o) = V m c main_arg2 (ix3 e h o) := by
  obtain ⟨-, -, -, -, -, -, a0, a1, a2, -⟩ := index_maps t
  unfold iblk
  rw [View.read_apply]
  show V m c main_arg2 _ = V m c main_arg2 _
  congr 1
  funext a
  apply Fin.ext
  match a with
  | ⟨0, _⟩ => show win0_2.index t (0 : Fin 3) * 1 + 1 * 0 = e.val; omega
  | ⟨1, _⟩ => show win0_2.index t (1 : Fin 3) * 1024 + 1 * h.val = h.val; omega
  | ⟨2, _⟩ => show win0_2.index t (2 : Fin 3) * 256 + 1 * o.val = o.val; omega

/-- An index of the result array lies in point t's output block iff each coordinate lies in the
    block's range on its axis. -/
theorem mem_out_block (t : Fin cfg0.N) (i : S32x1024x256.Idx) :
    i ∈ ((cfg0.win 3).blk t).view.set ↔ ∀ a : Fin 3, win0_3.index t a * S1x512x256.size a ≤ (i a).val ∧ (i a).val < win0_3.index t a * S1x512x256.size a + S1x512x256.size a := by
  show i ∈ ((View.whole main_v0).slice (win0_3.rect t)).set ↔ _
  rw [View.set_slice_whole, Rect.mem_set_unit]
  exact Iff.rfl

end Cert.KernelIdeal.Blocks

end
-- ==== Proof.KernelCarried.lean ====
/-
  What the two carried buffers hold after each grid point, and hence what each point computes.

  Point t works on expert e = t / 2. At the expert's first row tile (t even) the body copies the
  expert's weight matrices w1[e] and w2[e] into the two buffers; at the second (t odd) it leaves
  them as the point before left them, and the point before is the same expert's first tile. So
  after every point the buffers hold w1[e] and w2[e] (a change of float format is the identity
  over the extended reals), by induction on the point, and at every point the output tile is the
  tile computation applied to the point's rows of `x` and to w1[e], w2[e].
-/
import proofs.«107512_j28097676051039_2_alg».proof.Proof.KernelPieces
import proofs.«107512_j28097676051039_2_alg».proof.Proof.KernelPayload
import proofs.«107512_j28097676051039_2_alg».proof.Proof.KernelBlocks

noncomputable section

open Idealize.ShloMosaic Idealize.ShloMosaic.TcCoe Idealize.SL.Sem

namespace Cert.KernelIdeal.Carried

open Cert.KernelIdeal Cert.KernelIdeal.Gen Idealize.ShloMosaic.ValueIdx
open Cert.KernelIdeal.Pieces Cert.KernelIdeal.Payload Cert.KernelIdeal.Blocks

variable (m : (ℓ : Loc nD τ sig) → Buf (Elt Ideal) ℓ)

/-- Expert e's first weight matrix, as the region finds the array. -/
def w1_of (c : Dev nD) (e : Fin 32) : Vec Ideal S3072x1024 .bf16 := fun j => V m c main_arg1 (ix3 e (j 0) (j 1))
/-- Expert e's second weight matrix, as the region finds the array. -/
def w2_of (c : Dev nD) (e : Fin 32) : Vec Ideal S1024x256 .bf16 := fun j => V m c main_arg2 (ix3 e (j 0) (j 1))

/-- The copy of point t's first weight block is expert t / 2's first weight matrix. -/
theorem copy_w1_eq (c : Dev nD) (t : Fin cfg0.N) (e : Fin 32) (he : e.val = t.val / 2) :
    k0_pay1 (F := Ideal) (iblk m c 1 t) = w1_of m c e := by
  funext j
  obtain ⟨d, h, rfl⟩ : ∃ (d : Fin 3072) (h : Fin 1024), j = ix2 d h := ⟨j 0, j 1, eq_ix2 j⟩
  exact (copy_w1_apply (iblk m c 1 t) d h).trans (w1_slab_apply m c t d h e he)

/-- The copy of point t's second weight block is expert t / 2's second weight matrix. -/
theorem copy_w2_eq (c : Dev nD) (t : Fin cfg0.N) (e : Fin 32) (he : e.val = t.val / 2) :
    k0_pay2 (F := Ideal) (iblk m c 2 t) = w2_of m c e := by
  funext j
  obtain ⟨h, o, rfl⟩ : ∃ (h : Fin 1024) (o : Fin 256), j = ix2 h o := ⟨j 0, j 1, eq_ix2 j⟩
  exact (copy_w2_apply (iblk m c 2 t) h o).trans (w2_slab_apply m c t h o e he)

/-- After an expert's first row tile the two buffers hold the expert's weight matrices. -/
theorem after_first_tile (c : Dev nD) (t : Fin cfg0.N) (h0 : t.val % 2 = 0) (e : Fin 32) (he : e.val = t.val / 2) :
    (outsAt0 m c t.val t.isLt).2.1 = w1_of m c e ∧ (outsAt0 m c t.val t.isLt).2.2 = w2_of m c e := by
  rw [outsAt0_A m c t h0]
  dsimp only
  have e1 := first_w1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
  have e2 := first_w2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
  exact ⟨e1.trans (copy_w1_eq m c t e he), e2.trans (copy_w2_eq m c t e he)⟩

/-- After every point the two buffers hold the weight matrices of the point's expert. -/
theorem carried (c : Dev nD) (n : ℕ) : ∀ (hn : n < cfg0.N) (e : Fin 32), e.val = n / 2 →
    (outsAt0 m c n hn).2.1 = w1_of m c e ∧ (outsAt0 m c n hn).2.2 = w2_of m c e := by
  induction n with
  | zero => intro hn e he; exact after_first_tile m c ⟨0, hn⟩ rfl e he
  | succ n ih =>
    intro hn e he
    by_cases h0 : (n + 1) % 2 = 0
    · exact after_first_tile m c ⟨n + 1, hn⟩ h0 e he
    · rw [outsAt0_B m c ⟨n + 1, hn⟩ h0]
      dsimp only
      unfold sout0_B_0 sout0_B_1
      exact ih (Nat.lt_of_succ_lt hn) e (by omega)

/-- The output tile at point t: the tile computation on the point's rows of `x` and on the weight
    matrices of expert t / 2. -/
theorem tile_eq (c : Dev nD) (t : Fin cfg0.N) (e : Fin 32) (he : e.val = t.val / 2) :
    (outsAt0 m c t.val t.isLt).1 = k0_pay3 (F := Ideal) (iblk m c 0 t) (w1_of m c e) (w2_of m c e) := by
  by_cases h0 : t.val % 2 = 0
  · rw [outsAt0_A m c t h0]
    dsimp only
    have e3 := first_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)
    refine e3.trans ?_
    exact congrArg₂ (k0_pay3 (F := Ideal) (iblk m c 0 t)) (copy_w1_eq m c t e he) (copy_w2_eq m c t e he)
  · rw [outsAt0_B m c t h0]
    dsimp only
    have e3 := later_out (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2.1
      (outsAt0 m c (t.val - 1) (Nat.lt_of_le_of_lt (Nat.sub_le _ _) t.isLt)).2.2
    refine e3.trans ?_
    obtain ⟨p1, p2⟩ := carried m c (t.val - 1) (Nat.lt_of_le_of_lt (Nat.sub_le _ _) t.isLt) e (by omega)
    exact congrArg₂ (k0_pay3 (F := Ideal) (iblk m c 0 t)) p1 p2

end Cert.KernelIdeal.Carried

end
-- ==== Proof.KernelValue.lean ====
/-
  The kernel's result array is the specification of its three argument arrays.

  At point t (expert e = t / 2, row tile q = t mod 2) the output tile at local (·, r, o) is the tile
  computation on rows 512·q + r of x[e] and on w1[e], w2[e], which is out[e, 512·q + r, o]; that
  tile is written back to the block at (e, q, 0) of the result array. The 64 blocks tile the
  array: index (e, n, o) lies in the block of point 2·e + n / 512. So the array ends holding the
  specification everywhere.
-/
import proofs.«107512_j28097676051039_2_alg».proof.Proof.Spec
import proofs.«107512_j28097676051039_2_alg».proof.Proof.KernelCarried
import proofs.«107512_j28097676051039_2_alg».proof.Proof.Gen.KernelIdeal.Value

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Idealize.ShloMosaic.ValueIdx Cert.Mlp
open Cert.KernelIdeal.Payload Cert.KernelIdeal.Blocks Cert.KernelIdeal.Carried

/-- The tile computation on a row of `x[e]` and on the matrices `w1[e]`, `w2[e]` is the
    specification's output unit for that row. -/
theorem tile_is_out (X : SX.Idx → EReal) (W1 : SW1.Idx → EReal) (W2 : SW2.Idx → EReal)
    (a : Vec Ideal S1x512x3072 .f32) (b : Vec Ideal S3072x1024 .bf16) (cc : Vec Ideal S1024x256 .bf16)
    (e : Fin 32) (u : Fin 1) (r : Fin 512) (o : Fin 256) (n : Fin 1024)
    (ha : ∀ d : Fin 3072, a (ix3 (0 : Fin 1) r d) = X (ix3 e n d))
    (hb : ∀ (d : Fin 3072) (h : Fin 1024), b (ix2 d h) = W1 (ix3 e d h))
    (hc : ∀ h : Fin 1024, cc (ix2 h o) = W2 (ix3 e h o)) :
    k0_pay3 (F := Ideal) a b cc (ix3 u r o) = outUnit X W1 W2 e n o := by
  rw [out_tile_apply]
  unfold outUnit hiddenUnit
  simp only [ha, hb, hc]

/-- The same at an index y of the tile and the index i of the array it is written to: row tile q of
    expert e puts its local (·, r, o) at (e, 512·q + r, o). -/
theorem tile_is_mlp (X : SX.Idx → EReal) (W1 : SW1.Idx → EReal) (W2 : SW2.Idx → EReal)
    (a : Vec Ideal S1x512x3072 .f32) (b : Vec Ideal S3072x1024 .bf16) (cc : Vec Ideal S1024x256 .bf16)
    (e : Fin 32) (q : ℕ)
    (ha : ∀ (r : Fin 512) (d : Fin 3072) (n : Fin 1024), n.val = 512 * q + r.val → a (ix3 (0 : Fin 1) r d) = X (ix3 e n d))
    (hb : ∀ (d : Fin 3072) (h : Fin 1024), b (ix2 d h) = W1 (ix3 e d h))
    (hc : ∀ (h : Fin 1024) (o : Fin 256), cc (ix2 h o) = W2 (ix3 e h o))
    (y : S1x512x256.Idx) (i : SW2.Idx)
    (hi0 : (i 0).val = e.val) (hi1 : (i 1).val = 512 * q + (y 1).val) (hi2 : (i 2).val = (y 2).val) :
    k0_pay3 (F := Ideal) a b cc y = mlp X W1 W2 i := by
  obtain ⟨u, r, o, rfl⟩ : ∃ (u : Fin 1) (r : Fin 512) (o : Fin 256), y = ix3 u r o := ⟨y 0, y 1, y 2, eq_ix3 y⟩
  have e0 : i 0 = e := Fin.ext hi0
  have e2 : i 2 = o := Fin.ext hi2
  unfold mlp
  rw [e0, e2]
  exact tile_is_out X W1 W2 a b cc e u r o (i 1) (fun d => ha r d (i 1) hi1) hb (fun h => hc h o)

variable (m : (ℓ : Loc nD τ sig) → Buf (Elt Ideal) ℓ) (ρ : Dev nD → PrngReg)

/-- What the kernel's result array ends holding: the specification of the argument arrays. -/
abbrev result (c : Dev nD) : S32x1024x256.Idx → EReal :=
  mlp (V m c main_arg0) (V m c main_arg1) (V m c main_arg2)

/-- What point t writes back is its block of the specification. -/
theorem flushed_eq (c : Dev nD) (t : Fin cfg0.N) :
    (dats m 0 c).flushed 3 t = ((cfg0.win 3).blk t).view.read (Elt Ideal) (result m c) := by
  have hN : t.val < 64 := lt_of_lt_of_eq t.isLt (show cfg0.N = 64 from N_0)
  obtain ⟨-, -, -, -, -, -, -, -, -, o0, o1, o2⟩ := index_maps t
  have he : (⟨t.val / 2, by omega⟩ : Fin 32).val = t.val / 2 := rfl
  rw [Value.flushed3, tile_eq m c t ⟨t.val / 2, by omega⟩ he]
  funext y
  rw [View.read_apply]
  show k0_pay3 (F := Ideal) _ _ _ ((cfg0.win 3).xinj (grid0.coords t) y) = mlp _ _ _ (((cfg0.win 3).blk t).view.emb y)
  have y0 : (y 0).val < 1 := (y 0).isLt
  refine tile_is_mlp (V m c main_arg0) (V m c main_arg1) (V m c main_arg2) _ _ _ ⟨t.val / 2, by omega⟩ (t.val % 2)
    (fun r d n hn => x_tile_apply m c t r d ⟨t.val / 2, by omega⟩ n he hn) (fun d h => rfl) (fun h o => rfl) _ _ ?_ ?_ ?_
  · show win0_3.index t (0 : Fin 3) * 1 + 1 * (y 0).val = t.val / 2
    omega
  · show win0_3.index t (1 : Fin 3) * 512 + 1 * (y 1).val = 512 * (t.val % 2) + (y 1).val
    omega
  · show win0_3.index t (2 : Fin 3) * 256 + 1 * (y 2).val = (y 2).val
    omega

/-- Every index of the result array lies in some point's output block: (e, n, o) in that of point
    2·e + n / 512. -/
theorem covered (i : S32x1024x256.Idx) :
    ∃ t : Fin cfg0.N, (cfg0.win 3).flush t = true ∧ i ∈ ((cfg0.win 3).blk t).view.set := by
  have h0 : (i 0).val < 32 := (i 0).isLt
  have h1 : (i 1).val < 1024 := (i 1).isLt
  have h2 : (i 2).val < 256 := (i 2).isLt
  have hN : cfg0.N = 64 := N_0
  have ht : 2 * (i 0).val + (i 1).val / 512 < cfg0.N := lt_of_lt_of_eq (by omega) hN.symm
  obtain ⟨-, -, -, -, -, -, -, -, -, o0, o1, o2⟩ := index_maps ⟨2 * (i 0).val + (i 1).val / 512, ht⟩
  have tv : (⟨2 * (i 0).val + (i 1).val / 512, ht⟩ : Fin cfg0.N).val = 2 * (i 0).val + (i 1).val / 512 := rfl
  refine ⟨⟨2 * (i 0).val + (i 1).val / 512, ht⟩, flush0_3 _, ?_⟩
  rw [mem_out_block]
  intro a
  match a with
  | ⟨0, _⟩ =>
    show win0_3.index ⟨2 * (i 0).val + (i 1).val / 512, ht⟩ (0 : Fin 3) * 1 ≤ (i 0).val ∧ (i 0).val < win0_3.index ⟨2 * (i 0).val + (i 1).val / 512, ht⟩ (0 : Fin 3) * 1 + 1
    omega
  | ⟨1, _⟩ =>
    show win0_3.index ⟨2 * (i 0).val + (i 1).val / 512, ht⟩ (1 : Fin 3) * 512 ≤ (i 1).val ∧ (i 1).val < win0_3.index ⟨2 * (i 0).val + (i 1).val / 512, ht⟩ (1 : Fin 3) * 512 + 512
    omega
  | ⟨2, _⟩ =>
    show win0_3.index ⟨2 * (i 0).val + (i 1).val / 512, ht⟩ (2 : Fin 3) * 256 ≤ (i 2).val ∧ (i 2).val < win0_3.index ⟨2 * (i 0).val + (i 1).val / 512, ht⟩ (2 : Fin 3) * 256 + 256
    omega

/-- The result array after the run is the specification. -/
theorem final (c : Dev nD) : (dats m 0 c).arrAt 3 cfg0.N = result m c :=
  (dats m 0 c).arrAt_eq_of_cover 3 (result m c) (fun t _ => flushed_eq m c t) covered

/-- The kernel's run: every weakly fair execution terminates with the result array at the
    specification of the argument arrays, and the argument arrays unchanged. -/
theorem run : θ_run defs (onTc (τ := τ) (main (F := Ideal))) ⟨m, fun _ => 0, ρ⟩ fun r => ∀ c : Dev nD,
      r.2.mem ((c : Thread nD τ).loc main_v0) = mlp (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KernelValue

end
-- ==== Proof.lean ====
/-
  A two-layer perceptron per expert with a rectifier after each layer,
    out[e, n, o] = max(Σ_h max(Σ_d x[e, n, d] · w1[e, d, h], 0) · w2[e, h, o], 0),
  computed by a pipelined kernel over a grid of 32 experts × 2 row tiles against two batched
  contractions on the host. Over the extended reals both are that one function of the three
  argument arrays (Proof/Spec.lean): the reference by reading its two contractions and two
  rectifiers at an index (Proof/RefValue.lean); the kernel because the two buffers it carries from
  an expert's first row tile to its second hold that expert's weight matrices at every point
  (Proof/KernelCarried.lean), so every output tile is the specification's tile, and the 64 tiles
  cover the result array (Proof/KernelValue.lean). No law beyond reading sums and maxima at an
  index is used: the two sides sum the same products over the same index sets, so the
  finiteness of the inputs is never opened.
-/
import proofs.«107512_j28097676051039_2_alg».proof.Defs
import proofs.«107512_j28097676051039_2_alg».proof.Proof.Gen.Kernel
import proofs.«107512_j28097676051039_2_alg».proof.Proof.Gen.Kernel.Skeleton
import proofs.«107512_j28097676051039_2_alg».proof.Proof.Gen.Kernel.Launch
import proofs.«107512_j28097676051039_2_alg».proof.Proof.Gen.Kernel.Points
import proofs.«107512_j28097676051039_2_alg».proof.Proof.Gen.Kernel.Frame
import proofs.«107512_j28097676051039_2_alg».proof.Proof.Gen.KernelIdeal
import proofs.«107512_j28097676051039_2_alg».proof.Proof.Gen.KernelIdeal.Skeleton
import proofs.«107512_j28097676051039_2_alg».proof.Proof.Gen.KernelIdeal.Launch
import proofs.«107512_j28097676051039_2_alg».proof.Proof.Gen.KernelIdeal.Points
import proofs.«107512_j28097676051039_2_alg».proof.Proof.Gen.KernelIdeal.Frame
import proofs.«107512_j28097676051039_2_alg».proof.Proof.Gen.ReferenceIdeal
import proofs.«107512_j28097676051039_2_alg».proof.Proof.Gen.Pre_finite_inputs
import proofs.«107512_j28097676051039_2_alg».proof.Proof.Gen.KernelIdeal.Value
import proofs.«107512_j28097676051039_2_alg».proof.Proof.Gen.ReferenceIdeal.Run
import proofs.«107512_j28097676051039_2_alg».proof.Proof.Gen.ReferenceIdeal.Read
import proofs.«107512_j28097676051039_2_alg».proof.Proof.RefValue
import proofs.«107512_j28097676051039_2_alg».proof.Proof.KernelValue
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel over the extended reals rewrote none of its operations. -/
theorem preserves : Cert.preserves_Kernel_KernelIdeal := trivial

/-- From arguments that agree, both programs end with the result array at the specification of the
    arguments. -/
theorem algebraic : Cert.algebraic_KernelIdeal_ReferenceIdeal := by
  intro m ρ m' ρ' _ hagree
  refine ⟨fun c => Cert.Mlp.mlp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
